-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1x4096 : Shape := ⟨2, ![1, 4096]⟩
abbrev S1024x4096 : Shape := ⟨2, ![1024, 4096]⟩
abbrev S4096 : Shape := ⟨1, ![4096]⟩
abbrev S4096x1 : Shape := ⟨2, ![4096, 1]⟩
abbrev S1024x1 : Shape := ⟨2, ![1024, 1]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x1, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S1024x4096, .f32⟩
  | .local _ .vmem, ⟨4, _⟩ => ⟨S1024x4096, .f32⟩
  | .local _ .vmem, ⟨5, _⟩ => ⟨S1x4096, .f32⟩
  | .local _ .vmem, ⟨6, _⟩ => ⟨S1024x1, .f32⟩
  | .local _ .vmem, ⟨7, _⟩ => ⟨S1024x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x4096_S1024x4096_0_0 : ∀ a, (![0, 0] : Fin 2 → Nat) a + S1024x4096.size a ≤ S1024x4096.size a
  h_S1024x4096 : 0 < S1024x4096.numel
  reduces_S1024x4096_S4096 : S1024x4096.Reduces [0] S4096
  shapeCasts_S4096_S1x4096 : S4096.ShapeCasts S1x4096
  broadcasts_S1x4096_S1024x4096 : S1x4096.Broadcasts S1024x4096
  reduces_S1024x4096_S1024 : S1024x4096.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .f32 = 32 ∨ (Rect.block (s := S4096x4096) S1024x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)

variable [Facts₀]

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.LibRealEntries.lean ====
/-
  General lemmas for reading a "finite input" precondition on the extended reals.

  A float input's finiteness test is |x| < +∞ with |x| = max x (−x) and +∞ the float word 0x7F800000. On the extended
  reals the maximum is +∞ exactly at the two infinities, so a passing test says x is a real number.

  * `top_word`: the f32 word 0x7F800000 is the top element.
  * `real_of_abs_lt`: if the comparison max x (−x) < +∞ comes out true, x is the coercion of a real.
-/
import Idealize.ShloMosaic.PureOps.Ideal

noncomputable section

namespace Cert.RealEntries

open Idealize.ShloMosaic

/-- The float word of +∞ is the extended reals' top element. -/
theorem top_word : Ideal.ofBits .f32 0x7F800000#32 = (⊤ : EReal) := by simp [Ideal.ofBits, Ideal.ieee]

/-- An extended real whose absolute value max x (−x) is strictly below +∞ is a real number: at either infinity the
    maximum is +∞ itself. -/
theorem real_of_abs_lt (x : EReal) (h : Ideal.cmp .olt (max x (-x)) (Ideal.ofBits .f32 0x7F800000#32) = 1#1) :
    ∃ r : ℝ, x = (r : EReal) := by
  rw [top_word] at h
  have h' : max x (-x) < ⊤ := by
    by_contra hn
    simp [Ideal.cmp, hn] at h
  induction x using EReal.rec with
  | bot => simp at h'
  | coe r => exact ⟨r, rfl⟩
  | top => simp at h'

end Cert.RealEntries

end
-- ==== Proof.FiniteEntries.lean ====
/-
  What the precondition says, entry by entry.

  The precondition is the conjunction of two tests, one per input array: "every entry's absolute value is below +∞".
  On the extended reals |x| is max x (−x), which is +∞ exactly at the two infinities, so a passing test says that
  every entry of the array is a real number. That is the form in which the distributive law of the certificate can
  use it.
-/
import proofs.«149931_j3556232922104_2_alg».proof.Pre_finite_inputs
import Idealize.ShloMosaic.Lib.ReduceAll
import Idealize.ShloMosaic.Lib.ValueIdx
import Idealize.ShloMosaic.PureOps.Ideal
import proofs.«149931_j3556232922104_2_alg».proof.Proof.LibRealEntries

noncomputable section

namespace Cert.FiniteEntries

open Idealize.ShloMosaic Cert.Pre_finite_inputs

/-- A rank-zero array has one index. -/
instance : Subsingleton S_.Idx := ⟨fun _ _ => funext fun d => d.elim0⟩

/-- If the precondition holds of two arrays, every entry of each is a real number: the conjunction splits, each half
    is an "all" over the array, and each element's test is the comparison above. -/
theorem entries_real [Facts] (x w : FVec Ideal S4096x4096 .f32) (h : fn (F := Ideal) x w = fun _ => 1#1) :
    (∀ i, ∃ r : ℝ, x i = (r : EReal)) ∧ (∀ i, ∃ r : ℝ, w i = (r : EReal)) := by
  have h0 := congrFun h ValueIdx.ix0
  dsimp only [fn] at h0
  obtain ⟨hx, hw⟩ := IntOp.andi_eq_one.1 h0
  refine ⟨fun i => Cert.RealEntries.real_of_abs_lt (x i) ?_, fun i => Cert.RealEntries.real_of_abs_lt (w i) ?_⟩
  · exact Host.reduce_andi_all _ _ _ _ _ hx i
  · exact Host.reduce_andi_all _ _ _ _ _ hw i

end Cert.FiniteEntries

end
-- ==== Proof.KernelRun.lean ====
/-
  The idealized kernel's run with its result array named.

  The program is two kernel launches in a row: the first writes the row of column totals, the second reads it and
  writes the result column. Between and after the launches the memory is described by a chain of valuations: the
  memory at launch, the memory after the first launch (its output array at what its write-backs leave, everything
  else untouched), and the memory after the second (likewise). Every weakly fair execution terminates in a state
  whose unscoped buffers hold the last valuation; read at the result buffer this is what the second launch's
  write-backs leave, and read at the two arguments it is what they held at launch.
-/
import proofs.«149931_j3556232922104_2_alg».proof.Proof.Gen.KernelIdeal.Frame

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the second launch: what that launch's write-backs leave in its output array. -/
theorem W2_main_v1 (c : Dev nD) : W2 m ρ c (Proc.devRef .tc main_v1) = (dat1 (V1 m ρ) c).arrAt 2 cfg1.N :=
  W2_arr m ρ c 2

set_option backward.isDefEq.respectTransparency.types false in
/-- Every weakly fair execution of the program terminates, without a fault, with the result array at what the second
    launch's write-backs leave and both arguments as launched. -/
theorem run : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c)⟩)

end Cert.KernelIdeal.NamedRun

end
-- ==== Proof.LibColSums.lean ====
/-
  General lemmas for kernels that keep a per-column number as a [1, b] row, read at the exact (extended-real) instance.

  * `colSum_apply`: a sum of an [a, b] array along its FIRST axis is, at q, the plain sum over k of the array at (k, q).
  * `keepdimsColSum_apply`: that sum kept as a [1, b] row reads, at (u, q), the same sum.
  * `broadcast_keepdimsColSum_apply`: the row repeated down the rows of an [m, b] array reads, at (p, q), the same sum.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ColSums

open Idealize.ShloMosaic Idealize.ShloMosaic.ValueIdx

/-- The sum of an [a, b] array along its first axis, at q, is the sum over k of the array at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum kept as a [1, b] row: at (u, q) the sum over k of the array at (k, q). -/
theorem keepdimsColSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (u : Fin 1) (q : Fin b) :
    shapeCast ⟨2, ![1, b]⟩ (multiReduction .add [0] ⟨1, ![b]⟩ src acc h hφ hacc) hs (ix2 u q) = ∑ k : Fin a, src (ix2 k q) :=
  (shapeCast_a_1a_apply _ hs u q).trans (colSum_apply src acc h hφ hacc q)

/-- The row of column sums repeated down the rows of an [m, b] array: at (p, q) the sum over k of the array at (k, q). -/
theorem broadcast_keepdimsColSum_apply {a b m : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (hb : (⟨2, ![1, b]⟩ : Shape).Broadcasts ⟨2, ![m, b]⟩) (p : Fin m) (q : Fin b) :
    broadcastTo ⟨2, ![m, b]⟩ (shapeCast ⟨2, ![1, b]⟩ (multiReduction .add [0] ⟨1, ![b]⟩ src acc h hφ hacc) hs) hb (ix2 p q)
      = ∑ k : Fin a, src (ix2 k q) :=
  (broadcastTo_1b_ab_apply _ hb p q).trans (keepdimsColSum_apply src acc h hφ hacc hs 0 q)

end Cert.ColSums

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.ColTotals.lean ====
/-
  The first launch: the column totals of the weight matrix.

  The launch walks the 4096 rows of w in four blocks of 1024 rows and keeps ONE [1, 4096] output block that never
  moves. At the first block it stores zeros into the output block; at every block it adds to the output block the
  block's column sums (a sum down the 1024 rows, kept as a [1, 4096] row); the output block is written back once,
  after the last block. So what the output array ends holding, at (0, k), is the running total

      (((0 + s₀(k)) + s₁(k)) + s₂(k)) + s₃(k),      sₜ(k) = ∑ over the rows r of block t of w(1024·t + r, k),

  and a sum over 4096 consecutive rows cut into four chunks of 1024 is the sum over all the rows: the array ends at
  c(k) = ∑ₕ w(h, k). Only associativity and commutativity of addition are used, so this holds on all of the extended
  reals.
-/
import proofs.«149931_j3556232922104_2_alg».proof.Proof.Gen.KernelIdeal.Frame
import proofs.«149931_j3556232922104_2_alg».proof.Proof.LibColSums
import proofs.«149931_j3556232922104_2_alg».proof.Proof.LibChunkSum
import Idealize.ShloMosaic.Lib.Pipeline.Value
import Idealize.ShloMosaic.Lib.ValueIdx
import Idealize.ShloMosaic.Lib.Tactic
import Idealize.ShloMosaic.PureOps.Ideal.Laws

noncomputable section

open scoped BigOperators

namespace Cert.KernelIdeal.ColTotals

open Idealize.ShloMosaic Idealize.ShloMosaic.TcCoe Idealize.SL.Sem Idealize.ShloMosaic.ValueIdx
open Idealize.ShloMosaic.Pipeline (Dat)
open Cert.KernelIdeal Cert.KernelIdeal.Gen

theorem zero_offsets : (![0, 0] : Fin 2 → Nat) = fun _ => 0 := funext fun a => by fin_cases a <;> rfl

/-! ## At any float instance: the output block after each grid point is a running total -/

section AnyFloat

variable {F : FTy → Type} [FloatOps F]
variable (V : (c : Dev nD) → (b : Ref sig .tc) → Buf (Elt F) ((c : Thread nD τ).loc b))

/-- A LATER point (1, 2, 3): with the output block holding `acc` and the input block `x`, the body leaves the one
    step "acc plus the column sums of x" — its one store covers the block and its loads read the whole buffers. -/
theorem later_point (c : Dev nD) (i : grid0.Coords) (a1 : Memref sig .tc .vmem S1024x4096 .f32) (h1 : a1.IsWhole)
    (a2 : Memref sig .tc .vmem S1x4096 .f32) (h2 : a2.IsWhole) (hc : ¬cond0_0 i) (x : Vec F S1024x4096 .f32)
    (acc : Vec F S1x4096 .f32) :
    out0_B_1 c i a1 h1 a2 h2 hc x acc = k0_pay2 acc x := by
  unfold out0_B_1
  rw [View.read_writes_eq_canon _ _ _ (cover0_B_1 c i a1 h1 a2 h2 hc x acc)]
  unfold kernelRun0_B
  dsimp only
  rw [View.canon_unit_zero zero_offsets]
  simp only [View.readAt_eq_ld, h1.read_unread, h2.read_unread, View.ld_unit_zero (S := S1024x4096) zero_offsets,
    View.ld_unit_zero (S := S1x4096) zero_offsets]

/-- The FIRST point: the body stores the zero row, reads it back, and leaves the same step taken from the zero row. -/
theorem first_point (c : Dev nD) (i : grid0.Coords) (a1 : Memref sig .tc .vmem S1024x4096 .f32) (h1 : a1.IsWhole)
    (a2 : Memref sig .tc .vmem S1x4096 .f32) (h2 : a2.IsWhole) (hc : cond0_0 i) (x : Vec F S1024x4096 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S1x4096) zero_offsets, View.readCov_unit_zero (S := S1x4096) _ zero_offsets]
  simp only [View.readAt_eq_ld, h1.read_unread, View.ld_unit_zero (S := S1024x4096) zero_offsets,
    View.ld_unit_zero (S := S1x4096) zero_offsets]

/-- The running total after point n: the step taken from the zero row at point 0, from the previous total after. -/
def running (c : Dev nD) : (n : ℕ) → n < cfg0.N → Vec F S1x4096 .f32
  | 0, h => k0_pay2 (k0_pay1 (F := F)) (iblk0 V c 0 ⟨0, h⟩)
  | n + 1, h => k0_pay2 (running c n (Nat.lt_of_succ_lt h)) (iblk0 V c 0 ⟨n + 1, h⟩)

/-- What the output block holds after point n IS the running total — by induction on the point. -/
theorem outsAt_eq (c : Dev nD) : ∀ (n : ℕ) (h : n < cfg0.N), outsAt0 V c n h = running V c n h
  | 0, h => (outsAt0_A V c ⟨0, h⟩ rfl).trans (first_point ..)
  | n + 1, h => by
    have hN : cfg0.N = 4 := N_0
    have hB : ¬(⟨n + 1, h⟩ : Fin cfg0.N).val % 4 = 0 := by dsimp only; omega
    rw [outsAt0_B V c ⟨n + 1, h⟩ hB, later_point]
    show k0_pay2 (outsAt0 V c n _) _ = k0_pay2 (running V c n _) _
    rw [outsAt_eq c n]

end AnyFloat

/-! ## On the extended reals: the last running total is the sum over all rows -/

variable (V : (c : Dev nD) → (b : Ref sig .tc) → Buf (Elt Ideal) ((c : Thread nD τ).loc b))

/-- What the launch leaves in its output array, as one function of the array it reads: at (0, k) the total of column k. -/
def colTotals (W : S4096x4096.Idx → EReal) : S1x4096.Idx → EReal :=
  fun j => ∑ h : Fin 4096, W (ix2 h (j 1))

/-- One step at an entry: the accumulator's entry plus the block's column sum. -/
theorem step_apply (acc : Vec Ideal S1x4096 .f32) (x : Vec Ideal S1024x4096 .f32) (u : Fin 1) (q : Fin 4096) :
    k0_pay2 (F := Ideal) acc x (ix2 u q) = acc (ix2 u q) + ∑ r : Fin 1024, x (ix2 r q) := by
  unfold k0_pay2
  refine congrArg₂ (· + ·) ?_ ?_
  · rw [shapeCast_self]
  · exact Cert.ColSums.keepdimsColSum_apply _ _ _ _ _ _ u q

/-- The zero row at an entry. -/
theorem start_apply (u : Fin 1) (q : Fin 4096) : k0_pay1 (F := Ideal) (ix2 u q) = 0 := Ideal.ofBits_zero_f32

/-- Where the windows' blocks sit, decided once over the four grid points: block t of w is the t-th block of rows, the
    output block is always the whole [1, 4096] array. -/
theorem block_positions : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The weight array as the launch finds it, and its block at a grid point, as arrays of extended reals. -/
abbrev found (c : Dev nD) : S4096x4096.Idx → EReal := V c main_arg1
abbrev blockAt (c : Dev nD) (t : Fin cfg0.N) : S1024x4096.Idx → EReal := iblk0 V c 0 t

/-- Row r of block t, among the 4096 rows. -/
def rowOf (t : Fin 4) (r : Fin 1024) : Fin (4 * 1024) :=
  ⟨1024 * t.val + r.val, by have := t.isLt; have := r.isLt; omega⟩

/-- Block t of w, read at (r, k), is w at row 1024·t + r. -/
theorem block_read (c : Dev nD) (t : Fin cfg0.N) (t' : Fin 4) (ht : t.val = t'.val) (r : Fin 1024) (q : Fin 4096) :
    blockAt V c t (ix2 r q) = found V c (ix2 (rowOf t' r) q) := by
  obtain ⟨e0, e1, -, -⟩ := block_positions t
  show V c main_arg1 (((cfg0.win 0).blk t).view.emb (ix2 r q)) = _
  refine congrArg (V c main_arg1) (funext fun a => Fin.ext ?_)
  match a with
  | ⟨0, _⟩ =>
    show win0_0.index t (0 : Fin 2) * 1024 + 1 * r.val = 1024 * t'.val + r.val
    rw [e0, ht]; omega
  | ⟨1, _⟩ =>
    show win0_0.index t (1 : Fin 2) * 4096 + 1 * q.val = q.val
    rw [e1]; omega

/-- The total after the last point, at (u, k): the sum of column k over all 4096 rows. -/
theorem running_last (c : Dev nD) (h3 : 3 < cfg0.N) (u : Fin 1) (q : Fin 4096) :
    running V c 3 h3 (ix2 u q) = ∑ h : Fin 4096, found V c (ix2 h q) := by
  have hN : cfg0.N = 4 := N_0
  have blk : ∀ (n : ℕ) (hn : n < cfg0.N) (t' : Fin 4), n = t'.val →
      ∑ r : Fin 1024, blockAt V c ⟨n, hn⟩ (ix2 r q) = ∑ r : Fin 1024, found V c (ix2 (rowOf t' r) q) :=
    fun n hn t' e => Finset.sum_congr rfl fun r _ => block_read V c ⟨n, hn⟩ t' e r q
  simp only [running]
  refine (step_apply _ _ u q).trans ?_
  refine (congrArg₂ (· + ·) ((step_apply _ _ u q).trans (congrArg₂ (· + ·) ((step_apply _ _ u q).trans
    (congrArg₂ (· + ·) ((step_apply _ _ u q).trans (congrArg₂ (· + ·) (start_apply u q) (blk 0 _ 0 rfl)))
      (blk 1 _ 1 rfl))) (blk 2 _ 2 rfl))) (blk 3 _ 3 rfl)).trans ?_
  exact Cert.LibChunkSum.running_four 1024 (fun h : Fin (4 * 1024) => found V c (ix2 h q)) rowOf (fun _ _ => rfl)

/-- THE ONE WRITE-BACK, at the last point, writes block (0, 0) of `colTotals`, which is all of it. -/
theorem flushed_eq (c : Dev nD) (t : Fin cfg0.N) (hf : (cfg0.win 1).flush t = true) :
    (dat0 V c).flushed 1 t = ((cfg0.win 1).blk t).view.read (Elt Ideal) (colTotals (V c main_arg1)) := by
  have hN : cfg0.N = 4 := N_0
  have h3 : t.val = 3 := by have := (flush0_1 t).mp hf; have := t.isLt; omega
  obtain ⟨tv, htv⟩ := t
  dsimp only at h3
  subst h3
  show (cfg0.win 1).cut (grid0.coords ⟨3, htv⟩) ((dat0 V c).after 1 ⟨3, htv⟩) = _
  rw [after0_1, outsAt_eq]
  obtain ⟨-, -, e2, e3⟩ := block_positions ⟨3, htv⟩
  funext j
  obtain ⟨u, q, rfl⟩ : ∃ (u : Fin 1) (q : Fin 4096), j = ix2 u q := ⟨j 0, j 1, eq_ix2 j⟩
  refine (running_last V c htv u q).trans ?_
  show _ = colTotals (V c main_arg1) (((cfg0.win 1).blk ⟨3, htv⟩).view.emb (ix2 u q))
  unfold colTotals
  refine Finset.sum_congr rfl fun h _ => congrArg (V c main_arg1) (funext fun a => Fin.ext ?_)
  match a with
  | ⟨0, _⟩ => rfl
  | ⟨1, _⟩ =>
    show q.val = win0_1.index ⟨3, htv⟩ (1 : Fin 2) * 4096 + 1 * q.val
    rw [e3]; omega

/-- An index of the output array is in point t's block iff each coordinate is in the block's range on its axis. -/
theorem mem_block (t : Fin cfg0.N) (i : S1x4096.Idx) :
    i ∈ ((cfg0.win 1).blk t).view.set ↔ ∀ a : Fin 2, win0_1.index t a * S1x4096.size a ≤ (i a).val ∧ (i a).val < win0_1.index t a * S1x4096.size a + S1x4096.size a := by
  show i ∈ ((View.whole main_v0).slice (win0_1.rect t)).set ↔ _
  rw [View.set_slice_whole, Rect.mem_set_unit]
  exact Iff.rfl

/-- The last point's block covers the whole output array. -/
theorem covered (i : S1x4096.Idx) :
    ∃ t : Fin cfg0.N, (cfg0.win 1).flush t = true ∧ i ∈ ((cfg0.win 1).blk t).view.set := by
  have hi0 : (i 0).val < 1 := (i 0).isLt
  have hi1 : (i 1).val < 4096 := (i 1).isLt
  obtain ⟨-, -, e2, e3⟩ := block_positions t0_3
  refine ⟨t0_3, (flush0_1 t0_3).mpr rfl, ?_⟩
  rw [mem_block]
  intro a
  match a with
  | ⟨0, _⟩ =>
    show win0_1.index t0_3 (0 : Fin 2) * 1 ≤ (i 0).val ∧ (i 0).val < win0_1.index t0_3 (0 : Fin 2) * 1 + 1
    rw [e2]; omega
  | ⟨1, _⟩ =>
    show win0_1.index t0_3 (1 : Fin 2) * 4096 ≤ (i 1).val ∧ (i 1).val < win0_1.index t0_3 (1 : Fin 2) * 4096 + 4096
    rw [e3]; omega

/-- THE OUTPUT ARRAY after the launch: the column totals of the array the launch found. -/
theorem final (c : Dev nD) : (dat0 V c).arrAt 1 cfg0.N = colTotals (V c main_arg1) :=
  (dat0 V c).arrAt_eq_of_cover 1 (colTotals (V c main_arg1)) (flushed_eq V c) covered

end Cert.KernelIdeal.ColTotals

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«149931_j3556232922104_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.RowDots.lean ====
/-
  The second launch: every batch row's dot product with one given row.

  The launch walks the batch in four blocks of 1024 rows. At each block it multiplies the [1024, 4096] block of x,
  entry by entry, with the [1, 4096] row it was handed (repeated down the block), sums every row of the products,
  keeps the sums as a [1024, 1] column, multiplies the column by the word 1.0 and writes it back as rows
  1024·t … 1024·t + 1023 of the result. So the result array ends, at (b, 0), at

      ( ∑ₖ x(b,k) · row(0,k) ) · 1

  for whatever [4096, 4096] array x and [1, 4096] array row the launch finds in memory when it starts.
-/
import proofs.«149931_j3556232922104_2_alg».proof.Proof.Gen.KernelIdeal.Frame
import proofs.«149931_j3556232922104_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowDots

open Idealize.ShloMosaic Idealize.ShloMosaic.TcCoe Idealize.SL.Sem Idealize.ShloMosaic.ValueIdx
open Idealize.ShloMosaic.Pipeline (Dat)
open Cert.KernelIdeal Cert.KernelIdeal.Gen

theorem zero_offsets : (![0, 0] : Fin 2 → Nat) = fun _ => 0 := funext fun a => by fin_cases a <;> rfl

/-- What the launch leaves in its result array, as one function of the two arrays it reads. -/
def rowDots (X : S4096x4096.Idx → EReal) (row : S1x4096.Idx → EReal) : S4096x1.Idx → EReal :=
  fun i => (∑ k : Fin 4096, X (ix2 (i 0) k) * row (ix2 (0 : Fin 1) k)) * Ideal.ofBits .f32 0x3F800000#32

/-- One block's arithmetic at an entry: the products summed along the row, times the word 1.0. -/
theorem block_apply (x0 : Vec Ideal S1024x4096 .f32) (x1 : Vec Ideal S1x4096 .f32) (p : Fin 1024) (u : Fin 1) :
    k1_pay1 (F := Ideal) x0 x1 (ix2 p u)
      = (∑ k : Fin 4096, x0 (ix2 p k) * x1 (ix2 (0 : Fin 1) k)) * Ideal.ofBits .f32 0x3F800000#32 := by
  unfold k1_pay1
  refine congrArg₂ (· * ·) ?_ rfl
  refine (Cert.Columns.keepdimsSum_apply _ _ _ _ _ _ p u).trans ?_
  refine Finset.sum_congr rfl fun k _ => ?_
  refine congrArg (x0 (ix2 p k) * ·) ?_
  refine (broadcastTo_1b_ab_apply _ _ p k).trans ?_
  rw [shapeCast_self]

variable (V : (c : Dev nD) → (b : Ref sig .tc) → Buf (Elt Ideal) ((c : Thread nD τ).loc b))

/-- Where the windows' blocks sit, decided once over the four grid points: block t of x and of the result is the
    t-th block of rows; the given row is always the whole [1, 4096] array. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of `rowDots` of the arrays the launch finds. -/
theorem flushed_eq (c : Dev nD) (t : Fin cfg1.N) :
    (dat1 V c).flushed 2 t = ((cfg1.win 2).blk t).view.read (Elt Ideal) (rowDots (V c main_arg0) (V c main_v0)) := by
  show (cfg1.win 2).cut (grid1.coords t) ((dat1 V c).after 2 t) = _
  rw [after1_2]
  unfold out1_2
  rw [View.canon_unit_zero zero_offsets]
  simp only [View.ld_unit_zero (S := S1024x4096) zero_offsets, View.ld_unit_zero (S := S1x4096) zero_offsets]
  obtain ⟨e0, e1, e2, e3, e4, e5⟩ := block_positions t
  funext j
  obtain ⟨p, u, rfl⟩ : ∃ (p : Fin 1024) (u : Fin 1), j = ix2 p u := ⟨j 0, j 1, eq_ix2 j⟩
  refine (block_apply (iblk1 V c 0 t) (iblk1 V c 1 t) p u).trans ?_
  show _ = rowDots (V c main_arg0) (V c main_v0) (((cfg1.win 2).blk t).view.emb (ix2 p u))
  unfold rowDots
  refine congrArg (· * Ideal.ofBits .f32 0x3F800000#32) (Finset.sum_congr rfl fun k _ => congrArg₂ (· * ·) ?_ ?_)
  · show V c main_arg0 (((cfg1.win 0).blk t).view.emb (ix2 p k)) = _
    refine congrArg (V c main_arg0) (funext fun a => Fin.ext ?_)
    match a with
    | ⟨0, _⟩ =>
      show win1_0.index t (0 : Fin 2) * 1024 + 1 * p.val = win1_2.index t (0 : Fin 2) * 1024 + 1 * p.val
      rw [e0, e4]
    | ⟨1, _⟩ =>
      show win1_0.index t (1 : Fin 2) * 4096 + 1 * k.val = k.val
      rw [e1]; omega
  · show V c main_v0 (((cfg1.win 1).blk t).view.emb (ix2 (0 : Fin 1) k)) = _
    refine congrArg (V c main_v0) (funext fun a => Fin.ext ?_)
    match a with
    | ⟨0, _⟩ =>
      show win1_1.index t (0 : Fin 2) * 1 + 1 * 0 = 0
      rw [e2]
    | ⟨1, _⟩ =>
      show win1_1.index t (1 : Fin 2) * 4096 + 1 * k.val = k.val
      rw [e3]; omega

/-- An index of the result array is in point t's block iff each coordinate is in the block's range on its axis. -/
theorem mem_block (t : Fin cfg1.N) (i : S4096x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v1).slice (win1_2.rect t)).set ↔ _
  rw [View.set_slice_whole, Rect.mem_set_unit]
  exact Iff.rfl

/-- Every row b of the result is written by the point b / 1024. -/
theorem covered (i : S4096x1.Idx) :
    ∃ t : Fin cfg1.N, (cfg1.win 2).flush t = true ∧ i ∈ ((cfg1.win 2).blk t).view.set := by
  have hi0 : (i 0).val < 4096 := (i 0).isLt
  have hi1 : (i 1).val < 1 := (i 1).isLt
  have hN : cfg1.N = 4 := N_1
  have ht : (i 0).val / 1024 < cfg1.N := by rw [hN]; omega
  obtain ⟨-, -, -, -, e4, e5⟩ := block_positions ⟨(i 0).val / 1024, ht⟩
  refine ⟨⟨(i 0).val / 1024, ht⟩, flush1_2 _, ?_⟩
  rw [mem_block]
  intro a
  match a with
  | ⟨0, _⟩ =>
    show win1_2.index ⟨(i 0).val / 1024, ht⟩ (0 : Fin 2) * 1024 ≤ (i 0).val ∧ (i 0).val < win1_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win1_2.index ⟨(i 0).val / 1024, ht⟩ (1 : Fin 2) * 1 ≤ (i 1).val ∧ (i 1).val < win1_2.index ⟨(i 0).val / 1024, ht⟩ (1 : Fin 2) * 1 + 1
    rw [e5]; omega

/-- THE RESULT ARRAY after the launch: `rowDots` of the two arrays the launch found. -/
theorem final (c : Dev nD) : (dat1 V c).arrAt 2 cfg1.N = rowDots (V c main_arg0) (V c main_v0) :=
  (dat1 V c).arrAt_eq_of_cover 2 (rowDots (V c main_arg0) (V c main_v0)) (fun t _ => flushed_eq V c t) covered

end Cert.KernelIdeal.RowDots

end
-- ==== Proof.KernelValue.lean ====
/-
  The idealized kernel's result as one function of its two arguments.

  The first launch reads w as launched and leaves the row of its column totals c(k) = ∑ₕ w(h,k) in the intermediate
  array; nothing else in memory changes. The second launch therefore finds x as launched and that row, and leaves the
  result array at (b, 0) at ( ∑ₖ x(b,k) · c(k) ) · 1. The arguments end as launched.
-/
import proofs.«149931_j3556232922104_2_alg».proof.Proof.KernelRun
import proofs.«149931_j3556232922104_2_alg».proof.Proof.ColTotals
import proofs.«149931_j3556232922104_2_alg».proof.Proof.RowDots

noncomputable section

namespace Cert.KernelIdeal.Whole

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The kernel's result: each batch row's dot product with the column totals of w, times the word 1.0. -/
def result (X W : S4096x4096.Idx → EReal) : S4096x1.Idx → EReal :=
  RowDots.rowDots X (ColTotals.colTotals W)

/-- The second launch finds x as launched: the first launch does not touch it. -/
theorem found_x (c : Dev nD) : V1 m ρ c main_arg0 = m ((c : Thread nD τ).loc main_arg0) :=
  W1_of_ne m ρ c main_arg0 (by decide)

/-- The second launch finds, in the intermediate array, the column totals of w as launched. -/
theorem found_row (c : Dev nD) : V1 m ρ c main_v0 = ColTotals.colTotals (m ((c : Thread nD τ).loc main_arg1)) :=
  (W1_arr m ρ c 1).trans (ColTotals.final (V0 m ρ) c)

/-- So what the second launch's write-backs leave is `result` of the arguments as launched. -/
theorem final (c : Dev nD) : (dat1 (V1 m ρ) c).arrAt 2 cfg1.N
    = result (m ((c : Thread nD τ).loc main_arg0)) (m ((c : Thread nD τ).loc main_arg1)) := by
  rw [RowDots.final (V1 m ρ) c, found_x, found_row]
  rfl

/-- Every weakly fair execution of the idealized kernel terminates, without a fault, with the result array at
    `result` of the arguments as launched and the arguments unchanged. -/
theorem run : θ_run defs (onTc (τ := τ) (main (F := Ideal))) ⟨m, fun _ => 0, ρ⟩ (fun r => ∀ c : Dev nD,
      r.2.mem ((c.tc : Thread nD τ).loc main_v1)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m ρ c), (h c).2⟩) (NamedRun.run (F := Ideal) m ρ)

end Cert.KernelIdeal.Whole

end
-- ==== Proof.LibSumCollapse.lean ====
/-
  General lemmas for collapsing a matrix product followed by a sum, on the extended reals.

  A program that computes ∑ₕ ∑ₖ x(k) · w(h,k) (a matrix-vector product, then a sum over the outputs) may instead first
  collapse the matrix to its column totals c(k) = ∑ₕ w(h,k) and take one dot product ∑ₖ x(k) · c(k). The two agree
  because multiplication distributes over a finite sum, x · ∑ₕ wₕ = ∑ₕ x · wₕ. On the extended reals that law fails at
  the infinities (+∞ + −∞ inside the bracket), so it is stated for entries that are real numbers.

  * `coe_sum`: the coercion of the reals into the extended reals commutes with finite sums.
  * `dot_colTotals`: for real entries, ∑ₖ f(k) · ∑ₕ g(h,k) = ∑ₕ ∑ₖ f(k) · g(h,k).
-/
import Mathlib.Data.EReal.Basic
import Mathlib.Algebra.BigOperators.Ring.Finset
import Mathlib.Algebra.BigOperators.Group.Finset.Sigma

open scoped BigOperators

namespace Cert.Collapse

/-- The coercion of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- DISTRIBUTIVITY, summed: for real entries, the dot product of a row with the column totals of a matrix is the
    total over the matrix's rows of the row-by-row dot products. -/
theorem dot_colTotals {K H : ℕ} (f : Fin K → EReal) (g : Fin H → Fin K → EReal)
    (hf : ∀ k, ∃ r : ℝ, f k = (r : EReal)) (hg : ∀ h k, ∃ r : ℝ, g h k = (r : EReal)) :
    ∑ k, f k * ∑ h, g h k = ∑ h, ∑ k, f k * g h k := by
  choose fr hfr using hf
  choose gr hgr using hg
  simp only [hfr, hgr, ← coe_sum, ← EReal.coe_mul]
  refine congrArg _ ?_
  simp only [Finset.mul_sum]
  exact Finset.sum_comm

end Cert.Collapse
-- ==== Proof.RefValue.lean ====
/-
  The reference at an entry, and why it is the kernel's number.

  Read one operation at a time, the reference's result at (b, u) is

      ( 0 + ∑ₕ ( ∑ₖ x(b,k) · w(h,k) ) ) · 1 :

  the matrix product's entry (b, h) is the inner sum, the row sum starts from the word +0.0, and the last line multiplies
  by the word 1.0. The kernel's number at the same entry is ( ∑ₖ x(b,k) · ∑ₕ w(h,k) ) · 1. With real entries
  x · ∑ₕ wₕ = ∑ₕ x · wₕ, the two double sums are one sum taken in two orders, and 0 + s = s.
-/
import proofs.«149931_j3556232922104_2_alg».proof.Proof.Gen.ReferenceIdeal.Read
import proofs.«149931_j3556232922104_2_alg».proof.Proof.LibSumCollapse
import proofs.«149931_j3556232922104_2_alg».proof.Proof.KernelValue
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read

/-- The left operand of the product is read at (b, k): the result's row, the contraction position. -/
theorem left_index (i : S4096x1.Idx) (h k : Fin 4096) :
    lidx_main_v0 (idx_main_v1 (idx_main_v2 i) h) k = ix2 (i 0) k :=
  funext fun a => Fin.ext (by match a with | ⟨0, _⟩ => rfl | ⟨1, _⟩ => rfl)

/-- The right operand is read at (h, k): the product's column, the contraction position. -/
theorem right_index (i : S4096x1.Idx) (h k : Fin 4096) :
    ridx_main_v0 (idx_main_v1 (idx_main_v2 i) h) k = ix2 h k :=
  funext fun a => Fin.ext (by match a with | ⟨0, _⟩ => rfl | ⟨1, _⟩ => rfl)

/-- The reference's result at an entry. -/
theorem ref_apply (x w : (⟨S4096x4096, .f32⟩ : BufTy).Contents (Elt Ideal)) (i : S4096x1.Idx) :
    val_main_v4 (F := Ideal) x w i
      = (Ideal.ofBits .f32 0x00000000#32 + ∑ h : Fin 4096, ∑ k : Fin 4096, x (ix2 (i 0) k) * w (ix2 h k))
        * Ideal.ofBits .f32 0x3F800000#32 := by
  rw [val_main_v4_apply, val_main_v2_apply, val_main_v3_apply, val_main_v1_apply, val_main_cst_apply, val_main_cst_0_apply]
  simp only [val_main_v0_apply, left_index, right_index]
  rfl

/-- With real entries the reference's result is the kernel's. -/
theorem ref_eq_kernel (x w : (⟨S4096x4096, .f32⟩ : BufTy).Contents (Elt Ideal))
    (hx : ∀ i, ∃ r : ℝ, x i = (r : EReal)) (hw : ∀ i, ∃ r : ℝ, w i = (r : EReal)) :
    val_main_v4 (F := Ideal) x w = Cert.KernelIdeal.Whole.result x w := by
  funext i
  rw [ref_apply, Ideal.ofBits_zero_f32, zero_add]
  refine congrArg (· * Ideal.ofBits .f32 0x3F800000#32) ?_
  exact (Cert.Collapse.dot_colTotals (fun k => x (ix2 (i 0) k)) (fun h k => w (ix2 h k)) (fun k => hx _) (fun h k => hw _)).symm

end Cert.ReferenceIdeal.RefValue

end
-- ==== Proof.lean ====
/-
  The certificate: the kernel computes, for every batch row b, ( ∑ₕ ∑ₖ x(b,k) · w(h,k) ) · 1 — the row sums of x · wᵀ —
  as the reference does, on the extended reals, whenever every input entry is finite.

  The kernel is two launches. The first reduces the weight matrix to the row of its column totals c(k) = ∑ₕ w(h,k),
  accumulated over four blocks of rows (Proof/ColTotals.lean). The second takes each batch row's dot product with
  that row (Proof/RowDots.lean). Proof/KernelRun.lean and Proof/KernelValue.lean put the two launches in sequence:
  the result array ends at ( ∑ₖ x(b,k) · c(k) ) · 1. The reference is a matrix product followed by a row sum; read at
  an entry (Proof/RefValue.lean) it is ( 0 + ∑ₕ ∑ₖ x(b,k) · w(h,k) ) · 1. The two are equal because multiplication
  distributes over a finite sum of REAL numbers (Proof/LibSumCollapse.lean) — a law that fails on the extended reals at the
  infinities, which is why the precondition "every entry is finite", read entry by entry in
  Proof/FiniteEntries.lean, is used. The idealization rewrote nothing, so that conjunct is trivial, and the three
  frames are the programs' runs with the result forgotten.
-/
import proofs.«149931_j3556232922104_2_alg».proof.Defs
import proofs.«149931_j3556232922104_2_alg».proof.Proof.Gen.Kernel
import proofs.«149931_j3556232922104_2_alg».proof.Proof.Gen.Kernel.Skeleton
import proofs.«149931_j3556232922104_2_alg».proof.Proof.Gen.Kernel.Launch
import proofs.«149931_j3556232922104_2_alg».proof.Proof.Gen.Kernel.Points
import proofs.«149931_j3556232922104_2_alg».proof.Proof.Gen.Kernel.Frame
import proofs.«149931_j3556232922104_2_alg».proof.Proof.Gen.KernelIdeal
import proofs.«149931_j3556232922104_2_alg».proof.Proof.Gen.KernelIdeal.Skeleton
import proofs.«149931_j3556232922104_2_alg».proof.Proof.Gen.KernelIdeal.Launch
import proofs.«149931_j3556232922104_2_alg».proof.Proof.Gen.KernelIdeal.Points
import proofs.«149931_j3556232922104_2_alg».proof.Proof.Gen.KernelIdeal.Frame
import proofs.«149931_j3556232922104_2_alg».proof.Proof.Gen.ReferenceIdeal
import proofs.«149931_j3556232922104_2_alg».proof.Proof.Gen.ReferenceIdeal.Run
import proofs.«149931_j3556232922104_2_alg».proof.Proof.Gen.ReferenceIdeal.Read
import proofs.«149931_j3556232922104_2_alg».proof.Proof.Gen.Pre_finite_inputs
import proofs.«149931_j3556232922104_2_alg».proof.Proof.FiniteEntries
import proofs.«149931_j3556232922104_2_alg».proof.Proof.KernelValue
import proofs.«149931_j3556232922104_2_alg».proof.Proof.RefValue
import Idealize.ShloMosaic.Adequacy
import Idealize.ShloMosaic.Init

noncomputable section

namespace Cert.Proof

open Idealize.ShloMosaic Idealize.SL.Sem

/-- The word-level kernel runs, and its arguments end as launched. -/
theorem frame_kernel : Cert.frame_Kernel := fun m ρ _ => Cert.Kernel.Gen.frame m ρ

/-- The idealized kernel runs, and its arguments end as launched. -/
theorem frame_kernelIdeal : Cert.frame_KernelIdeal := fun m ρ _ => Cert.KernelIdeal.Gen.frame m ρ

/-- The reference runs, and its arguments end as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x and w, both finite: the kernel's result array ends at ( ∑ₖ x(b,k) · ∑ₕ w(h,k) ) · 1 and
    the reference's at ( 0 + ∑ₕ ∑ₖ x(b,k) · w(h,k) ) · 1, the same extended real at every entry. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v4_eq]
  obtain ⟨hx, hw⟩ := Cert.FiniteEntries.entries_real _ _ (hpre c)
  exact Cert.ReferenceIdeal.RefValue.ref_eq_kernel _ _ hx hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
